-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x8 : Shape := ⟨2, ![2000000, 8]⟩
abbrev S_ : Shape := ⟨0, ![]⟩

class Facts : Prop where
  bcast_S_S2000000x8 : S_.BroadcastsInDim S2000000x8 (![] : Fin 0 → Fin S2000000x8.rank)
  reducesTo_S2000000x8_S_d0_1 : S2000000x8.ReducesTo [0, 1] S_
  h_S_ : 0 < S_.numel

variable [Facts]

def fn {F : FTy → Type} [FloatOps F] (main_arg0 : FVec F S2000000x8 .f32) (main_arg1 : FVec F S2000000x8 .f32) : IVec S_ 1 :=
  let main_v0 : FVec F S2000000x8 .f32 := Host.absf main_arg0
  let main_cst : FVec F S_ .f32 := constant S_ .f32 0x7F800000#32
  let main_v1 : FVec F S2000000x8 .f32 := broadcastInDim S2000000x8 ![] bcast_S_S2000000x8 main_cst
  let main_v2 : IVec S2000000x8 1 := cmpf .olt main_v0 main_v1
  let main_c : IVec S_ 1 := constantI S_ 1 1#1
  let main_v3 : IVec S_ 1 := (fun x v => Host.reduce IntOp.andi x v reducesTo_S2000000x8_S_d0_1 h_S_) main_v2 main_c
  let main_v4 : FVec F S2000000x8 .f32 := Host.absf main_arg1
  let main_cst_0 : FVec F S_ .f32 := constant S_ .f32 0x7F800000#32
  let main_v5 : FVec F S2000000x8 .f32 := broadcastInDim S2000000x8 ![] bcast_S_S2000000x8 main_cst_0
  let main_v6 : IVec S2000000x8 1 := cmpf .olt main_v4 main_v5
  let main_c_1 : IVec S_ 1 := constantI S_ 1 1#1
  let main_v7 : IVec S_ 1 := (fun x v => Host.reduce IntOp.andi x v reducesTo_S2000000x8_S_d0_1 h_S_) main_v6 main_c_1
  let main_v8 : IVec S_ 1 := andi main_v3 main_v7
  main_v8
-- ==== Kernel.lean ====
abbrev S2000000x8 : Shape := ⟨2, ![2000000, 8]⟩
abbrev S8 : Shape := ⟨1, ![8]⟩
abbrev S1x8 : Shape := ⟨2, ![1, 8]⟩
abbrev S2000000x1 : Shape := ⟨2, ![2000000, 1]⟩
abbrev S8000x8 : Shape := ⟨2, ![8000, 8]⟩
abbrev S8000x1 : Shape := ⟨2, ![8000, 1]⟩
abbrev S8000 : Shape := ⟨1, ![8000]⟩
abbrev S2000000 : Shape := ⟨1, ![2000000]⟩

abbrev nBuf : Space → Nat
  | .hbm => 8
  | .vmem => 8
  | .smem => 0
  | _ => 0

abbrev bufTy : (tb : Table) → Fin (tcTables nBuf tb) → BufTy
  | .hbm, ⟨0, _⟩ => ⟨S2000000x8, .f32⟩
  | .hbm, ⟨1, _⟩ => ⟨S2000000x8, .f32⟩
  | .hbm, ⟨2, _⟩ => ⟨S8, .f32⟩
  | .hbm, ⟨3, _⟩ => ⟨S8, .f32⟩
  | .hbm, ⟨4, _⟩ => ⟨S1x8, .f32⟩
  | .hbm, ⟨5, _⟩ => ⟨S1x8, .f32⟩
  | .hbm, ⟨6, _⟩ => ⟨S2000000x1, .f32⟩
  | .hbm, ⟨7, _⟩ => ⟨S2000000, .f32⟩
  | .local _ .vmem, ⟨0, _⟩ => ⟨S8000x8, .f32⟩
  | .local _ .vmem, ⟨1, _⟩ => ⟨S8000x8, .f32⟩
  | .local _ .vmem, ⟨2, _⟩ => ⟨S8000x8, .f32⟩
  | .local _ .vmem, ⟨3, _⟩ => ⟨S8000x8, .f32⟩
  | .local _ .vmem, ⟨4, _⟩ => ⟨S1x8, .f32⟩
  | .local _ .vmem, ⟨5, _⟩ => ⟨S1x8, .f32⟩
  | .local _ .vmem, ⟨6, _⟩ => ⟨S8000x1, .f32⟩
  | .local _ .vmem, ⟨7, _⟩ => ⟨S8000x1, .f32⟩
  | _, _ => ⟨S2000000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8_S1x8 : S8.ShapeCasts S1x8
  inb_S8000x8_S8000x8_0_0 : ∀ a, (![0, 0] : Fin 2 → Nat) a + S8000x8.size a ≤ S8000x8.size a
  h_S8000x8 : 0 < S8000x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S8000x8 : S1x8.Broadcasts S8000x8
  reduces_S8000x8_S8000 : S8000x8.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  shapeCasts_S2000000x1_S2000000 : S2000000x1.ShapeCasts S2000000
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x8.size a ≤ S2000000x8.size a
  hwx0_0 : ∀ i : grid0.Coords, EltTy.bits .f32 = 32 ∨ (Rect.block (s := S2000000x8) S8000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x8.size a ≤ S2000000x8.size a
  hwx0_1 : ∀ i : grid0.Coords, EltTy.bits .f32 = 32 ∨ (Rect.block (s := S2000000x8) S8000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8.size a ≤ S1x8.size a
  hwx0_3 : ∀ i : grid0.Coords, EltTy.bits .f32 = 32 ∨ (Rect.block (s := S1x8) S1x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x1.size a ≤ S2000000x1.size a
  hwx0_4 : ∀ i : grid0.Coords, EltTy.bits .f32 = 32 ∨ (Rect.block (s := S2000000x1) S8000x1.size (cc0_transform_4 i) (hinb0_4 i)).WholeWords (EltTy.packing .f32)

variable [Facts₀]

abbrev win0_0 : Pipeline.Window sig grid0 :=
  Pipeline.Window.ofSpec (Memref.whole main_arg0) S8000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S8000x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2000000x8 : Shape := ⟨2, ![2000000, 8]⟩
abbrev S8 : Shape := ⟨1, ![8]⟩
abbrev S1x8 : Shape := ⟨2, ![1, 8]⟩
abbrev S_ : Shape := ⟨0, ![]⟩
abbrev S2000000 : Shape := ⟨1, ![2000000]⟩

abbrev nBuf : Space → Nat
  | .hbm => 38
  | .vmem => 0
  | .smem => 0
  | _ => 0

abbrev bufTy : (tb : Table) → Fin (tcTables nBuf tb) → BufTy
  | .hbm, ⟨0, _⟩ => ⟨S2000000x8, .f32⟩
  | .hbm, ⟨1, _⟩ => ⟨S2000000x8, .f32⟩
  | .hbm, ⟨2, _⟩ => ⟨S8, .f32⟩
  | .hbm, ⟨3, _⟩ => ⟨S8, .f32⟩
  | .hbm, ⟨4, _⟩ => ⟨S1x8, .f32⟩
  | .hbm, ⟨5, _⟩ => ⟨S2000000x8, .f32⟩
  | .hbm, ⟨6, _⟩ => ⟨S2000000x8, .f32⟩
  | .hbm, ⟨7, _⟩ => ⟨S_, .f32⟩
  | .hbm, ⟨8, _⟩ => ⟨S2000000x8, .f32⟩
  | .hbm, ⟨9, _⟩ => ⟨S2000000x8, .f32⟩
  | .hbm, ⟨10, _⟩ => ⟨S1x8, .f32⟩
  | .hbm, ⟨11, _⟩ => ⟨S2000000x8, .f32⟩
  | .hbm, ⟨12, _⟩ => ⟨S2000000x8, .f32⟩
  | .hbm, ⟨13, _⟩ => ⟨S2000000x8, .f32⟩
  | .hbm, ⟨14, _⟩ => ⟨S2000000x8, .f32⟩
  | .hbm, ⟨15, _⟩ => ⟨S_, .f32⟩
  | .hbm, ⟨16, _⟩ => ⟨S2000000x8, .f32⟩
  | .hbm, ⟨17, _⟩ => ⟨S2000000x8, .f32⟩
  | .hbm, ⟨18, _⟩ => ⟨S2000000x8, .f32⟩
  | .hbm, ⟨19, _⟩ => ⟨S2000000x8, .f32⟩
  | .hbm, ⟨20, _⟩ => ⟨S_, .f32⟩
  | .hbm, ⟨21, _⟩ => ⟨S2000000x8, .f32⟩
  | .hbm, ⟨22, _⟩ => ⟨S2000000x8, .f32⟩
  | .hbm, ⟨23, _⟩ => ⟨S_, .f32⟩
  | .hbm, ⟨24, _⟩ => ⟨S2000000x8, .f32⟩
  | .hbm, ⟨25, _⟩ => ⟨S2000000x8, .f32⟩
  | .hbm, ⟨26, _⟩ => ⟨S_, .f32⟩
  | .hbm, ⟨27, _⟩ => ⟨S2000000x8, .f32⟩
  | .hbm, ⟨28, _⟩ => ⟨S2000000x8, .f32⟩
  | .hbm, ⟨29, _⟩ => ⟨S2000000x8, .f32⟩
  | .hbm, ⟨30, _⟩ => ⟨S2000000x8, .f32⟩
  | .hbm, ⟨31, _⟩ => ⟨S2000000x8, .f32⟩
  | .hbm, ⟨32, _⟩ => ⟨S2000000x8, .f32⟩
  | .hbm, ⟨33, _⟩ => ⟨S_, .f32⟩
  | .hbm, ⟨34, _⟩ => ⟨S2000000, .f32⟩
  | .hbm, ⟨35, _⟩ => ⟨S_, .f32⟩
  | .hbm, ⟨36, _⟩ => ⟨S2000000, .f32⟩
  | .hbm, ⟨37, _⟩ => ⟨S2000000, .f32⟩
  | _, _ => ⟨S2000000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S8_S1x8_1 : S8.BroadcastsInDim S1x8 (![1] : Fin 1 → Fin S1x8.rank)
  bcast_S1x8_S2000000x8_0_1 : S1x8.BroadcastsInDim S2000000x8 (![0, 1] : Fin 2 → Fin S2000000x8.rank)
  bcast_S_S2000000x8 : S_.BroadcastsInDim S2000000x8 (![] : Fin 0 → Fin S2000000x8.rank)
  reducesTo_S2000000x8_S2000000_d1 : S2000000x8.ReducesTo [1] S2000000
  h_S_ : 0 < S_.numel

variable [Facts₀]

class Facts : Prop extends Facts₀ where

variable [Facts]
-- ==== Proof.LibDotIdx.lean ====
import Idealize.ShloMosaic.Lib.ValueIdx
import Idealize.ShloMosaic.PureOps.Ideal.Laws

/-!
# A matrix product into a zero accumulator, read at an index

Two arrangements of a rank-2 product with one contracted axis, at the exact extended reals: the plain one
(rows of the left operand against columns of the right) and the one that contracts the second axis of BOTH
operands (rows against rows).  Read at `(a, b)`, each is the sum over the contracted coordinate of the products
of the two entries; the zero accumulator contributes nothing.
-/

noncomputable section

namespace DotIdx

open Idealize.ShloMosaic Idealize.ShloMosaic.ValueIdx

variable {m k n : ℕ} {φ₁ φ₂ : FTy}

/-- Rows against columns: `[m, k] × [k, n] → [m, n]`. -/
theorem matmul_plain_zero_apply
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B
        (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- Rows against rows: `[m, k] × [n, k] → [m, n]`, the second axis of both operands contracted. -/
theorem matmul_rows_zero_apply
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (⟨[1], [1], [0], [0], [], [], w⟩ : DotDims _ _ _) prec A B
        (constant ⟨2, ![m, n]⟩ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end DotIdx

end
-- ==== Proof.LibKeepdims.lean ====
/-
  The small readings the kernel's body needs at an index: the two keepdims layout forms (a column
  of row results cast to one column, and one column broadcast along the rows), the result index of a
  reduction along the rows with the reduced coordinate put back, a one-bit comparison word widened to
  32 bits and converted to a float as `0` or `1`, the word arithmetic of a row offset below 8192, and
  a fold of `max` from minus infinity as a supremum.
-/
import Idealize.ShloMosaic.Lib.ValueIdx
import Idealize.ShloMosaic.Lib.Pipeline.Value
import Idealize.ShloMosaic.Lib.ValueLayout
import Idealize.ShloMosaic.Lib.Affine
import Idealize.ShloMosaic.PureOps.Ideal.Laws

noncomputable section

namespace Cert.SupCon.Ker

open Idealize.ShloMosaic Idealize.ShloMosaic.ValueIdx

/-! ## The keepdims layout forms -/

/-- A vector `[a]` cast to one column `[a, 1]` reads, at `(i, 0)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column `[a, 1]` broadcast along the rows to `[a, b]` reads, at `(p, c)`, the operand at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index of a `[a, b]` array that reduces along the rows into `i`, with column `k`, is `(i, k)`. -/
theorem lift_rows {a b : ℕ} (h : (⟨2, ![a, b]⟩ : Shape).Reduces [1] ⟨1, ![a]⟩) (i : Fin a) (k : Fin b) :
    h.lift (ix1 i) k = ix2 i k :=
  funext fun ax => Fin.ext (by
    match ax with
    | ⟨0, _⟩ => rfl
    | ⟨1, _⟩ => rfl)

/-! ## A comparison word as a float -/

/-- A one-bit word widened to 32 bits and converted as a signed integer is `1` or `0`. -/
theorem sitofp_setWidth (b : BitVec 1) :
    FloatOps.sitofp (F := Ideal) .f32 (b.setWidth 32) = if b = 1#1 then (1 : EReal) else 0 := by
  have e0 : ((0#1 : BitVec 1).setWidth 32).toInt = 0 := by decide
  have e1 : ((1#1 : BitVec 1).setWidth 32).toInt = 1 := by decide
  rcases (by decide : ∀ b : BitVec 1, b = 0#1 ∨ b = 1#1) b with rfl | rfl
  · show (((((0#1 : BitVec 1).setWidth 32).toInt : ℤ) : ℝ) : EReal) = _
    rw [e0, if_neg (by decide)]; simp
  · show (((((1#1 : BitVec 1).setWidth 32).toInt : ℤ) : ℝ) : EReal) = _
    rw [e1, if_pos rfl]; simp

/-- The float of an equality comparison of two words. -/
theorem mask_eq {w : ℕ} (x y : BitVec w) :
    FloatOps.sitofp (F := Ideal) .f32 ((IntOp.cmpi .eq x y).setWidth 32) = if x = y then (1 : EReal) else 0 := by
  rw [sitofp_setWidth]
  exact if_congr IntOp.cmpi_eq rfl rfl

/-- The float of an inequality comparison of two words. -/
theorem mask_ne {w : ℕ} (x y : BitVec w) :
    FloatOps.sitofp (F := Ideal) .f32 ((IntOp.cmpi .ne x y).setWidth 32) = if x = y then (0 : EReal) else 1 := by
  rw [sitofp_setWidth]
  by_cases hxy : x = y
  · rw [if_pos hxy, if_neg (fun h => (IntOp.cmpi_ne.mp h) hxy)]
  · rw [if_neg hxy, if_pos (IntOp.cmpi_ne.mpr hxy)]

/-- Row `128 t + r` as 32-bit words, the block's offset `t * 128` a product of words, meets column `j`
    exactly when the two numbers are equal: nothing wraps below 8192. -/
theorem row_word_eq (t r j : ℕ) (ht : t < 64) (hr : r < 128) (hj : j < 8192) :
    IntOp.addi (Scalar.muli (BitVec.ofNat 32 t) 128#32) (BitVec.ofNat 32 r) = BitVec.ofNat 32 j ↔ 128 * t + r = j := by
  show BitVec.ofNat 32 t * 128#32 + BitVec.ofNat 32 r = BitVec.ofNat 32 j ↔ _
  rw [← BitVec.toNat_inj]
  simp only [BitVec.toNat_add, BitVec.toNat_mul, BitVec.toNat_ofNat]
  omega

/-! ## The largest entry of a row -/

/-- The single-precision word `0xFF800000` is minus infinity. -/
theorem ofBits_negInf : Ideal.ofBits .f32 0xFF800000#32 = ⊥ := by simp [Ideal.ofBits, Ideal.ieee]

/-- A fold of `max` from minus infinity is the supremum. -/
theorem fold_max_bot {ι : Type*} (s : Finset ι) (f : ι → EReal) : s.fold max ⊥ f = s.sup f := rfl

end Cert.SupCon.Ker

end
-- ==== Proof.LibRowOps.lean ====
/-
  Rank-2 arrays read row by row at the exact extended reals, in the two spellings a kernel body and a host program
  give each form: a bias vector laid along every row; a column of per-row results laid along every column; the maximum
  and the sum of a row; the host's plain matrix product as a sum over the contracted coordinate. Each lemma reads the
  form at an index `(p, q)` and says which entries of the operand it depends on.
-/
import Idealize.ShloMosaic.Lib.ValueIdx
import Idealize.ShloMosaic.Lib.Pipeline.Value
import Idealize.ShloMosaic.Lib.KernelVsHost
import Idealize.ShloMosaic.PureOps.Ideal.Laws
import proofs.«125200_j50620484551284_2_alg».proof.Proof.LibDotIdx
import proofs.«125200_j50620484551284_2_alg».proof.Proof.LibKeepdims

noncomputable section

namespace Cert.LibRowOps

open Idealize.ShloMosaic Idealize.ShloMosaic.ValueIdx

variable {α : Type}

/-! ## A vector laid along every row -/

/-- The kernel's spelling: the vector cast to one row, the row broadcast down `m` rows. At `(p, q)` it is entry `q`. -/
theorem rowVec_kernel_apply {m n : Nat} (x : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (p : Fin m) (q : Fin n) :
    broadcastTo ⟨2, ![m, n]⟩ (shapeCast ⟨2, ![1, n]⟩ x h1) hb (ix2 p q) = x (ix1 q) := by
  have e1 := broadcastTo_apply (shapeCast ⟨2, ![1, n]⟩ x h1) hb (ix2 p q) (ix2 (0 : Fin 1) q) (by
    intro a
    match a with
    | ⟨0, _⟩ => rfl
    | ⟨1, _⟩ =>
      show q.val = if n = 1 then 0 else q.val
      split
      · have e : q.val < n := q.isLt; omega
      · rfl)
  have e2 := shapeCast_apply x h1 (ix2 (0 : Fin 1) q) (ix1 q) (by
    rw [Shape.rowMajor_val_two, Shape.rowMajor_val_one]; show q.val = 0 * n + q.val; omega)
  exact e1.trans e2

/-- The host's spelling: the vector broadcast along axis 1 to one row, the row broadcast along both axes. At `(p, q)`
    it is entry `q`. -/
theorem rowVec_host_apply {m n : Nat} (x : (⟨1, ![n]⟩ : Shape).Idx → α)
    (hd1 : (⟨1, ![n]⟩ : Shape).BroadcastsInDim ⟨2, ![1, n]⟩ ![1])
    (hd : (⟨2, ![1, n]⟩ : Shape).BroadcastsInDim ⟨2, ![m, n]⟩ ![0, 1]) (p : Fin m) (q : Fin n) :
    broadcastInDim ⟨2, ![m, n]⟩ ![0, 1] hd (broadcastInDim ⟨2, ![1, n]⟩ ![1] hd1 x) (ix2 p q) = x (ix1 q) := by
  rw [broadcastInDim_oneRow_apply]
  refine broadcastInDim_apply ![1] hd1 x (ix2 (0 : Fin 1) q) (ix1 q) ?_
  intro a
  match a with
  | ⟨0, _⟩ =>
    show q.val = if n = 1 then 0 else q.val
    split
    · have e : q.val < n := q.isLt; omega
    · rfl

/-! ## A column of per-row results laid along every column -/

/-- The kernel's spelling: the vector of row results cast to one column, the column broadcast along the rows. At
    `(p, q)` it is entry `p`. -/
theorem colVec_kernel_apply {a b : Nat} (v : (⟨1, ![a]⟩ : Shape).Idx → α)
    (h1 : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v h1) hb (ix2 p q) = v (ix1 p) := by
  rw [Cert.SupCon.Ker.broadcastTo_a1_ab_apply, Cert.SupCon.Ker.shapeCast_a_a1_apply]

/-- The host's column laid along the columns: one column broadcast along both axes reads, at `(p, q)`, its entry `(p, 0)`. -/
theorem colBcast_host_apply {a b : Nat} (y : (⟨2, ![a, 1]⟩ : Shape).Idx → α)
    (hd : (⟨2, ![a, 1]⟩ : Shape).BroadcastsInDim ⟨2, ![a, b]⟩ ![0, 1]) (p : Fin a) (q : Fin b) :
    broadcastInDim ⟨2, ![a, b]⟩ ![0, 1] hd y (ix2 p q) = y (ix2 p (0 : Fin 1)) :=
  broadcastInDim_apply ![0, 1] hd y (ix2 p q) (ix2 p (0 : Fin 1)) (by
    intro ax
    match ax with
    | ⟨0, _⟩ =>
      show p.val = if a = 1 then 0 else p.val
      split
      · have e : p.val < a := p.isLt; omega
      · rfl
    | ⟨1, _⟩ => rfl)

/-- The host's vector as one column: broadcast along axis 0 it reads, at `(p, 0)`, entry `p`. -/
theorem col1_host_apply {a : Nat} (v : (⟨1, ![a]⟩ : Shape).Idx → α)
    (hd0 : (⟨1, ![a]⟩ : Shape).BroadcastsInDim ⟨2, ![a, 1]⟩ ![0]) (p : Fin a) :
    broadcastInDim ⟨2, ![a, 1]⟩ ![0] hd0 v (ix2 p (0 : Fin 1)) = v (ix1 p) :=
  broadcastInDim_apply ![0] hd0 v (ix2 p (0 : Fin 1)) (ix1 p) (by
    intro ax
    match ax with
    | ⟨0, _⟩ =>
      show p.val = if a = 1 then 0 else p.val
      split
      · have e : p.val < a := p.isLt; omega
      · rfl)

/-- The host's spelling: the vector broadcast along axis 0 to one column, the column broadcast along both axes. At
    `(p, q)` it is entry `p`. -/
theorem colVec_host_apply {a b : Nat} (v : (⟨1, ![a]⟩ : Shape).Idx → α)
    (hd0 : (⟨1, ![a]⟩ : Shape).BroadcastsInDim ⟨2, ![a, 1]⟩ ![0])
    (hd : (⟨2, ![a, 1]⟩ : Shape).BroadcastsInDim ⟨2, ![a, b]⟩ ![0, 1]) (p : Fin a) (q : Fin b) :
    broadcastInDim ⟨2, ![a, b]⟩ ![0, 1] hd (broadcastInDim ⟨2, ![a, 1]⟩ ![0] hd0 v) (ix2 p q) = v (ix1 p) := by
  rw [colBcast_host_apply, col1_host_apply]

/-! ## The pointwise transcendentals at an index -/

theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

/-! ## The maximum and the sum of a row -/

/-- The kernel's maximum along the rows, at row `p`: the fold of `max` from the accumulator's value over the row. -/
theorem rowMax_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) := by
  rw [Ideal.multiReduction_maximumf_single]
  have hf : (src ∘ h.lift (ix1 p)) = fun k : Fin b => src (ix2 p k) :=
    funext fun k => congrArg src (Cert.SupCon.Ker.lift_rows h p k)
  exact congrArg (fun f => Finset.fold max (FloatOps.ofBits φ acc) f (Finset.univ : Finset (Fin b))) hf

/-- The host's maximum along the rows, at row `p`: the fold of `max` from the initial value over the row. -/
theorem rowMax_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) := by
  rw [Host.reduce_eq_fold_single FloatOps.maximumf x init h' h hu]
  have hf : (x ∘ h.lift (ix1 p)) = fun k : Fin b => x (ix2 p k) :=
    funext fun k => congrArg x (Cert.SupCon.Ker.lift_rows h p k)
  exact congrArg (fun f => Finset.fold max (init (Shape.Idx.first hu)) f (Finset.univ : Finset (Fin b))) hf

/-- The kernel's sum along the rows, at row `p`: the sum of the row (the neutral accumulator adds nothing). -/
theorem rowSum_kernel_apply {a b : Nat} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (Cert.SupCon.Ker.lift_rows h p k)

/-- The host's sum along the rows, at row `p`: the initial value plus the sum of the row. -/
theorem rowSum_host_apply {a b : Nat} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  show Ideal.hostReduceAdd h' x (init (Shape.Idx.first hu)) (ix1 p) = _
  rw [Ideal.hostReduceAdd_single h' h]
  exact congrArg (_ + ·) (Finset.sum_congr rfl fun k _ => congrArg x (Cert.SupCon.Ker.lift_rows h p k))

/-! ## The host's plain matrix product -/

/-- Rows against columns on the host, `[m, k] × [k, n] → [m, n]`: at `(a, b)` the sum over the contracted coordinate
    of the products of the two entries. -/
theorem dotGeneral_plain_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (⟨[1], [0], [0], [1], [], [], w⟩ : DotDims _ _ _) prec A B (ix2 a b)
      = ∑ c : Fin k, A (ix2 a c) * B (ix2 c b) :=
  (congrFun (matmul_zero_eq_dotGeneral (⟨[1], [0], [0], [1], [], [], w⟩ : DotDims _ _ _) prec A B) (ix2 a b)).symm.trans
    (DotIdx.matmul_plain_zero_apply w prec A B a b)

end Cert.LibRowOps

end
-- ==== Proof.RowLoss.lean ====
/-
  The weighted binary cross-entropy of one example, as a function on the extended reals.

  An example has 8 probabilities `x k` and 8 labels `y k`; target `k` carries a weight `wp k` for a positive
  label and `wn k` for a negative one.  The weight of an entry is `w = y * wp + (1 - y) * wn`, its log-likelihood is
  `y * log (x + ε) + (1 - y) * log ((1 - x) + ε)`, and the example's loss is the weighted mean of the negated
  log-likelihoods, `(Σ_k (-w k) * ll k) / (Σ_k w k)`.  `1` and `ε` are kept as the single-precision words the two
  programs share; nothing here evaluates them.

  Two spellings of the quotient of two row sums are read at a row: a kernel block's (each sum a reduction along the
  rows from the neutral accumulator, cast to one column, the columns divided) and a host program's (each sum from an
  initial value that is the zero word, the vectors divided).  Both are `Ideal.div (Σ_k A (r, k)) (Σ_k B (r, k))`.
-/
import Idealize.ShloMosaic.Lib.ValueIdx
import Idealize.ShloMosaic.Lib.Pipeline.Value
import Idealize.ShloMosaic.Lib.KernelVsHost
import Idealize.ShloMosaic.PureOps.Ideal.Laws
import proofs.«125200_j50620484551284_2_alg».proof.Proof.LibRowOps

noncomputable section

namespace Cert.WeightedBce

open Idealize.ShloMosaic Idealize.ShloMosaic.ValueIdx

/-- The word of `1.0`, read on the extended reals. -/
abbrev one : EReal := Ideal.ofBits .f32 0x3F800000#32
/-- The word of the guard `ε` inside the logarithms, read on the extended reals. -/
abbrev eps : EReal := Ideal.ofBits .f32 0x322BCC77#32

/-- The weight of one entry: `wp` for a positive label, `wn` for a negative one, mixed linearly by the label. -/
def weight (y wp wn : EReal) : EReal := y * wp + (one - y) * wn

/-- The log-likelihood of one entry: label `y` against probability `x`, both logarithms guarded by `ε`. -/
def logLik (x y : EReal) : EReal := y * Ideal.log (x + eps) + (one - y) * Ideal.log (one - x + eps)

/-- One example's loss from its 8 probabilities, its 8 labels and the two weight tables: the weighted mean of the
    negated log-likelihoods. -/
def rowLoss (x y wp wn : Fin 8 → EReal) : EReal :=
  Ideal.div (∑ k : Fin 8, -(weight (y k) (wp k) (wn k)) * logLik (x k) (y k)) (∑ k : Fin 8, weight (y k) (wp k) (wn k))

/-- The loss of example `r` of `n` examples: `rowLoss` of row `r` of the probabilities `x` and of the labels `y`, the
    two weight tables given as one-row matrices. -/
def lossAt {n : Nat} (x y : FVec Ideal ⟨2, ![n, 8]⟩ .f32) (wp wn : FVec Ideal ⟨2, ![1, 8]⟩ .f32) (r : Fin n) : EReal :=
  rowLoss (fun k => x (ix2 r k)) (fun k => y (ix2 r k)) (fun k => wp (ix2 (0 : Fin 1) k)) (fun k => wn (ix2 (0 : Fin 1) k))

/-- Every example's loss, laid out as one column. -/
def lossCol {n : Nat} (x y : FVec Ideal ⟨2, ![n, 8]⟩ .f32) (wp wn : FVec Ideal ⟨2, ![1, 8]⟩ .f32) :
    FVec Ideal ⟨2, ![n, 1]⟩ .f32 := fun i => lossAt x y wp wn (i 0)

/-- Every example's loss, laid out as a vector. -/
def lossVec {n : Nat} (x y : FVec Ideal ⟨2, ![n, 8]⟩ .f32) (wp wn : FVec Ideal ⟨2, ![1, 8]⟩ .f32) :
    FVec Ideal ⟨1, ![n]⟩ .f32 := fun i => lossAt x y wp wn (i 0)

/-- The column of losses reshaped to a vector is the vector of losses. -/
theorem shapeCast_lossCol {n : Nat} (x y : FVec Ideal ⟨2, ![n, 8]⟩ .f32) (wp wn : FVec Ideal ⟨2, ![1, 8]⟩ .f32)
    (h : (⟨2, ![n, 1]⟩ : Shape).ShapeCasts ⟨1, ![n]⟩) :
    shapeCast ⟨1, ![n]⟩ (lossCol x y wp wn) h = lossVec x y wp wn := by
  funext i
  obtain ⟨r, rfl⟩ : ∃ r : Fin n, i = ix1 r := ⟨i 0, eq_ix1 i⟩
  exact shapeCast_apply (lossCol x y wp wn) h (ix1 r) (ix2 r (0 : Fin 1)) (by
    rw [Shape.rowMajor_val_two, Shape.rowMajor_val_one]; show r.val * 1 + 0 = r.val; omega)

/-- Negation written as a difference from the zero word. -/
theorem zero_sub_eq_neg (w : EReal) : Ideal.ofBits .f32 0x00000000#32 - w = -w := by
  rw [Ideal.ofBits_zero_f32, zero_sub]

/-- A sum started from the zero word is the sum. -/
theorem zero_add_sum (s : EReal) : Ideal.ofBits .f32 0x00000000#32 + s = s := by
  rw [Ideal.ofBits_zero_f32, zero_add]

/-- A block's quotient of two row sums, read at row `p` of its one column: each sum a reduction along the rows from
    the neutral accumulator, cast to one column; the columns divided. -/
theorem rowQuot_kernel_apply {a b : Nat} (A B : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ)
    (h1 : (⟨1, ![a]⟩ : Shape).ShapeCasts ⟨2, ![a, 1]⟩) (p : Fin a) :
    divf (shapeCast ⟨2, ![a, 1]⟩ (multiReduction .add [1] ⟨1, ![a]⟩ A 0x00000000#32 h hφ hacc) h1)
        (shapeCast ⟨2, ![a, 1]⟩ (multiReduction .add [1] ⟨1, ![a]⟩ B 0x00000000#32 h hφ hacc) h1) (ix2 p (0 : Fin 1))
      = Ideal.div (∑ k : Fin b, A (ix2 p k)) (∑ k : Fin b, B (ix2 p k)) := by
  rw [divf_apply, Cert.SupCon.Ker.shapeCast_a_a1_apply, Cert.SupCon.Ker.shapeCast_a_a1_apply,
    Cert.LibRowOps.rowSum_kernel_apply, Cert.LibRowOps.rowSum_kernel_apply]

/-- The host's quotient of two row sums, read at row `r`: each sum from an initial value that is the zero word; the
    vectors divided. -/
theorem rowQuot_host_apply {a b : Nat} {u : Shape} (A B : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.divf (Host.reduceAdd A (constant (F := Ideal) u .f32 0x00000000#32) h' hu)
        (Host.reduceAdd B (constant (F := Ideal) u .f32 0x00000000#32) h' hu) (ix1 r)
      = Ideal.div (∑ k : Fin b, A (ix2 r k)) (∑ k : Fin b, B (ix2 r k)) := by
  show Ideal.div (Host.reduceAdd A _ h' hu (ix1 r)) (Host.reduceAdd B _ h' hu (ix1 r)) = _
  rw [Cert.LibRowOps.rowSum_host_apply A _ h' h hu r, Cert.LibRowOps.rowSum_host_apply B _ h' h hu r, constant_apply,
    zero_add_sum, zero_add_sum]

end Cert.WeightedBce

end
-- ==== Proof.LibRows.lean ====
/-
  A row vector laid along the rows of a matrix, in the two spellings a kernel and a host program give it.

  A vector `x` of `n` entries becomes the one-row matrix `y` with `y (0, j) = x j` either by a reshape or by a
  broadcast along axis 1: the two are one function (`shapeCast_row_eq_broadcastInDim`).  A one-row matrix `y` is laid
  down `m` rows, `(r, j) ↦ y (0, j)`, either by a broadcast of the vector (preceded by a cast of the one-row matrix to
  its own shape) or by a broadcast along both axes: again one function (`broadcastTo_oneRow_eq_broadcastInDim`).
-/
import Idealize.ShloMosaic.Lib.Pipeline.Value
import Idealize.ShloMosaic.Lib.ValueIdx
import Idealize.ShloMosaic.Lib.KernelVsHost

namespace Cert.LibRows

open Idealize.ShloMosaic Idealize.ShloMosaic.ValueIdx

variable {α : Type}

/-- A vector read as a one-row matrix: the reshape `[n] → [1, n]` and the broadcast along axis 1 both put entry `j`
    at `(0, j)`. -/
theorem shapeCast_row_eq_broadcastInDim {n : Nat} (x : (⟨1, ![n]⟩ : Shape).Idx → α)
    (h1 : (⟨1, ![n]⟩ : Shape).ShapeCasts ⟨2, ![1, n]⟩)
    (hd : (⟨1, ![n]⟩ : Shape).BroadcastsInDim ⟨2, ![1, n]⟩ ![1]) :
    shapeCast ⟨2, ![1, n]⟩ x h1 = broadcastInDim ⟨2, ![1, n]⟩ ![1] hd x := by
  funext i
  have h0 : (i 0).val < 1 := (i 0).isLt
  have e2 := shapeCast_apply x h1 i (ix1 (i 1 : Fin n)) (by
    rw [Shape.rowMajor_val_two, Shape.rowMajor_val_one]
    show (i 1).val = (i 0).val * n + (i 1).val
    have : (i 0).val = 0 := by omega
    rw [this]; omega)
  have e3 := broadcastInDim_apply ![1] hd x i (ix1 (i 1 : Fin n)) (by
    intro a
    match a with
    | ⟨0, _⟩ =>
      show (i 1).val = if n = 1 then 0 else (i 1).val
      split
      · have e : (i 1).val < n := (i 1).isLt; omega
      · rfl)
  exact e2.trans e3.symm

/-- The kernel's broadcast of a one-row matrix (cast to its own shape first) down `m` rows, read at `(r, j)`: the
    row's entry `(0, j)`. -/
theorem broadcastTo_oneRow_apply {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩) (p : Fin m) (q : Fin n) :
    broadcastTo ⟨2, ![m, n]⟩ (shapeCast ⟨2, ![1, n]⟩ y hs) hb (ix2 p q) = y (ix2 (0 : Fin 1) q) := by
  rw [shapeCast_self]
  refine broadcastTo_apply y hb _ (ix2 (0 : Fin 1) q) ?_
  intro a
  match a with
  | ⟨0, _⟩ => rfl
  | ⟨1, _⟩ =>
    show q.val = if n = 1 then 0 else q.val
    split
    · have e : q.val < n := q.isLt; omega
    · rfl

/-- A one-row matrix laid down `m` rows: the kernel's broadcast of its same-shape cast is the host's broadcast along
    both axes; at `(r, j)` both read `y (0, j)`. -/
theorem broadcastTo_oneRow_eq_broadcastInDim {m n : Nat} (y : (⟨2, ![1, n]⟩ : Shape).Idx → α)
    (hs : (⟨2, ![1, n]⟩ : Shape).ShapeCasts ⟨2, ![1, n]⟩)
    (hb : (⟨2, ![1, n]⟩ : Shape).Broadcasts ⟨2, ![m, n]⟩)
    (hd : (⟨2, ![1, n]⟩ : Shape).BroadcastsInDim ⟨2, ![m, n]⟩ ![0, 1]) :
    broadcastTo ⟨2, ![m, n]⟩ (shapeCast ⟨2, ![1, n]⟩ y hs) hb = broadcastInDim ⟨2, ![m, n]⟩ ![0, 1] hd y := by
  funext i
  obtain ⟨p, q, rfl⟩ : ∃ (p : Fin m) (q : Fin n), i = ix2 p q := ⟨i 0, i 1, eq_ix2 i⟩
  rw [broadcastInDim_oneRow_apply, broadcastTo_oneRow_apply]

end Cert.LibRows
-- ==== Proof.KerPayload.lean ====
/-
  The kernel body's one stored value, read at a row.

  A block holds 8000 examples.  The body computes, for every entry `(p, k)` of the block, the weight
  `w = y * wpos + (1 - y) * wneg` (the two weight rows laid down the block's rows) and the log-likelihood, sums
  `(0 - w) * ll` and `w` along each row, and divides the two columns.  Read at row `p` of its one column the stored
  value is the loss of example `p`: it depends on row `p` of the two input blocks and on the two weight rows only.
-/
import proofs.«125200_j50620484551284_2_alg».proof.Proof.Gen.KernelIdeal.Skeleton
import proofs.«125200_j50620484551284_2_alg».proof.Proof.RowLoss
import proofs.«125200_j50620484551284_2_alg».proof.Proof.LibRows

noncomputable section

namespace Cert.KernelIdeal.Hand

open Cert.KernelIdeal Cert.KernelIdeal.Gen Idealize.ShloMosaic Idealize.ShloMosaic.ValueIdx

/-- Row `p` of the block's result is the loss of example `p` of the block: `x0` the probabilities, `x1` the
    labels, `x2` and `x3` the one-row weight tables for positive and negative labels. -/
theorem pay_apply (x0 x1 : Vec Ideal S8000x8 .f32) (x2 x3 : Vec Ideal S1x8 .f32) (p : Fin 8000) :
    k0_pay1 (F := Ideal) x0 x1 x2 x3 (ix2 p (0 : Fin 1))
      = Cert.WeightedBce.rowLoss (fun k => x0 (ix2 p k)) (fun k => x1 (ix2 p k))
          (fun k => x2 (ix2 (0 : Fin 1) k)) (fun k => x3 (ix2 (0 : Fin 1) k)) := by
  unfold k0_pay1
  refine (Cert.WeightedBce.rowQuot_kernel_apply _ _ reduces_S8000x8_S8000 (.inl rfl) rfl shapeCasts_S8000_S8000x1 p).trans ?_
  unfold Cert.WeightedBce.rowLoss
  refine congrArg₂ Ideal.div (Finset.sum_congr rfl fun k _ => ?_) (Finset.sum_congr rfl fun k _ => ?_)
  · have e2 := Cert.LibRows.broadcastTo_oneRow_apply (m := 8000) x2 shapeCasts_S1x8_S1x8 broadcasts_S1x8_S8000x8 p k
    have e3 := Cert.LibRows.broadcastTo_oneRow_apply (m := 8000) x3 shapeCasts_S1x8_S1x8 broadcasts_S1x8_S8000x8 p k
    show (Ideal.ofBits .f32 0x00000000#32
          - (x1 (ix2 p k) * broadcastTo S8000x8 (shapeCast S1x8 x2 shapeCasts_S1x8_S1x8) broadcasts_S1x8_S8000x8 (ix2 p k)
            + (Cert.WeightedBce.one - x1 (ix2 p k))
              * broadcastTo S8000x8 (shapeCast S1x8 x3 shapeCasts_S1x8_S1x8) broadcasts_S1x8_S8000x8 (ix2 p k)))
        * (x1 (ix2 p k) * Ideal.log (x0 (ix2 p k) + Cert.WeightedBce.eps)
            + (Cert.WeightedBce.one - x1 (ix2 p k)) * Ideal.log (Cert.WeightedBce.one - x0 (ix2 p k) + Cert.WeightedBce.eps)) = _
    rw [e2, e3, Cert.WeightedBce.zero_sub_eq_neg]
    rfl
  · have e2 := Cert.LibRows.broadcastTo_oneRow_apply (m := 8000) x2 shapeCasts_S1x8_S1x8 broadcasts_S1x8_S8000x8 p k
    have e3 := Cert.LibRows.broadcastTo_oneRow_apply (m := 8000) x3 shapeCasts_S1x8_S1x8 broadcasts_S1x8_S8000x8 p k
    show x1 (ix2 p k) * broadcastTo S8000x8 (shapeCast S1x8 x2 shapeCasts_S1x8_S1x8) broadcasts_S1x8_S8000x8 (ix2 p k)
          + (Cert.WeightedBce.one - x1 (ix2 p k))
            * broadcastTo S8000x8 (shapeCast S1x8 x3 shapeCasts_S1x8_S1x8) broadcasts_S1x8_S8000x8 (ix2 p k) = _
    rw [e2, e3]
    rfl

end Cert.KernelIdeal.Hand

end
-- ==== Proof.KerHost.lean ====
/-
  What the region finds in its weight windows' arrays.

  Before the region the program writes each weight table — a literal vector of 8 words — and reshapes it to one row.
  So the array of the positive-label window is the one-row matrix whose entry `(0, k)` is word `k` of the first
  table, and likewise the negative-label window and the second table.
-/
import proofs.«125200_j50620484551284_2_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

/-- A table of 8 words as a vector of floats. -/
def table (lit : Fin 8 → BitVec 32) : FVec F S8 .f32 := fun i => FloatOps.ofBits .f32 (lit (S8.rowMajor i))

/-- A table as one row. -/
def tableRow (lit : Fin 8 → BitVec 32) : FVec F S1x8 .f32 := shapeCast S1x8 (table (F := F) lit) shapeCasts_S8_S1x8

/-- The positive-label window's array, as the region finds it, is the first table as one row. -/
theorem V_main_v0 (c : Dev nD) : (V m c main_v0 : S1x8.Idx → F .f32) = tableRow lit0 := by
  show StableHlo.after hostOps0 (fun b => m (c, b)) (Proc.devRef .tc main_v0) = _
  after_results
  rfl

/-- The negative-label window's array, as the region finds it, is the second table as one row. -/
theorem V_main_v1 (c : Dev nD) : (V m c main_v1 : S1x8.Idx → F .f32) = tableRow lit1 := by
  show StableHlo.after hostOps0 (fun b => m (c, b)) (Proc.devRef .tc main_v1) = _
  after_results
  rfl

/-- A table's row read at `(0, k)` is the table's entry `k`. -/
theorem tableRow_apply (lit : Fin 8 → BitVec 32) (k : Fin 8) :
    tableRow (F := F) lit (ix2 (0 : Fin 1) k) = table lit (ix1 k) :=
  shapeCast_apply (table (F := F) lit) shapeCasts_S8_S1x8 (ix2 (0 : Fin 1) k) (ix1 k) (by
    rw [Shape.rowMajor_val_two, Shape.rowMajor_val_one]; show k.val = 0 * 8 + k.val; omega)

end Cert.KernelIdeal.Hand

end
-- ==== Proof.KerBlocks.lean ====
/-
  From blocks to the array: what the region leaves in its output array.

  The grid has 250 points; point `t` reads rows `8000 t … 8000 t + 7999` of the probabilities and of the labels, the
  two one-row weight tables whole, and writes rows `8000 t … 8000 t + 7999` of the one-column output.  Row `p` of the
  block it writes is the loss of example `8000 t + p`, so every point writes back a block of ONE whole-array function,
  the column of all the examples' losses; the 250 blocks tile the output, so the output array ends holding that column.
-/
import proofs.«125200_j50620484551284_2_alg».proof.Proof.Gen.KernelIdeal.Frame
import proofs.«125200_j50620484551284_2_alg».proof.Proof.KerPayload
import proofs.«125200_j50620484551284_2_alg».proof.Proof.KerHost
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx Cert.WeightedBce

variable (m : (ℓ : Loc nD τ sig) → Buf (Elt Ideal) ℓ)

theorem hz : (![0, 0] : Fin 2 → Nat) = fun _ => 0 := funext fun a => by fin_cases a <;> rfl

/-- The printed index maps over the grid: the probabilities', the labels' and the output's blocks are block `t` along
    the examples, and the weight tables' blocks are the whole one-row tables. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 250 := Nat.lt_of_lt_of_eq t.isLt N_0

/-- The example that row `p` of block `t` is. -/
def row (t : Fin cfg0.N) (p : Fin 8000) : Fin 2000000 :=
  ⟨t.val * 8000 + p.val, by have ht := point_lt t; have hp := p.isLt; omega⟩

/-! ## The input blocks, read where the output's rows say -/

/-- Row `p` of the probabilities' block at point `t` is row `8000 t + p` of the probabilities. -/
theorem blk0_apply (c : Dev nD) (t : Fin cfg0.N) (p : Fin 8000) (k : Fin 8) :
    iblk m c 0 t (ix2 p k) = V m c main_arg0 (ix2 (row t p) k) := by
  obtain ⟨e0, e1, -⟩ := idx_facts t
  have h : ((cfg0.win 0).blk t).view.emb (ix2 p k) = ix2 (row t p) k := by
    funext a; apply Fin.ext
    match a with
    | ⟨0, _⟩ => show win0_0.index t (0 : Fin 2) * 8000 + 1 * p.val = t.val * 8000 + p.val; omega
    | ⟨1, _⟩ => show win0_0.index t (1 : Fin 2) * 8 + 1 * k.val = k.val; omega
  show V m c main_arg0 (((cfg0.win 0).blk t).view.emb (ix2 p k)) = _
  rw [h]

/-- Row `p` of the labels' block at point `t` is row `8000 t + p` of the labels. -/
theorem blk1_apply (c : Dev nD) (t : Fin cfg0.N) (p : Fin 8000) (k : Fin 8) :
    iblk m c 1 t (ix2 p k) = V m c main_arg1 (ix2 (row t p) k) := by
  obtain ⟨-, -, e0, e1, -⟩ := idx_facts t
  have h : ((cfg0.win 1).blk t).view.emb (ix2 p k) = ix2 (row t p) k := by
    funext a; apply Fin.ext
    match a with
    | ⟨0, _⟩ => show win0_1.index t (0 : Fin 2) * 8000 + 1 * p.val = t.val * 8000 + p.val; omega
    | ⟨1, _⟩ => show win0_1.index t (1 : Fin 2) * 8 + 1 * k.val = k.val; omega
  show V m c main_arg1 (((cfg0.win 1).blk t).view.emb (ix2 p k)) = _
  rw [h]

/-- The positive-label table's block at any point is the whole one-row table. -/
theorem blk2_apply (c : Dev nD) (t : Fin cfg0.N) (k : Fin 8) :
    iblk m c 2 t (ix2 (0 : Fin 1) k) = V m c main_v0 (ix2 (0 : Fin 1) k) := by
  obtain ⟨-, -, -, -, e0, e1, -⟩ := idx_facts t
  have h : ((cfg0.win 2).blk t).view.emb (ix2 (0 : Fin 1) k) = ix2 (0 : Fin 1) k := by
    funext a; apply Fin.ext
    match a with
    | ⟨0, _⟩ => show win0_2.index t (0 : Fin 2) * 1 + 1 * 0 = 0; omega
    | ⟨1, _⟩ => show win0_2.index t (1 : Fin 2) * 8 + 1 * k.val = k.val; omega
  show V m c main_v0 (((cfg0.win 2).blk t).view.emb (ix2 (0 : Fin 1) k)) = _
  rw [h]

/-- The negative-label table's block at any point is the whole one-row table. -/
theorem blk3_apply (c : Dev nD) (t : Fin cfg0.N) (k : Fin 8) :
    iblk m c 3 t (ix2 (0 : Fin 1) k) = V m c main_v1 (ix2 (0 : Fin 1) k) := by
  obtain ⟨-, -, -, -, -, -, e0, e1, -⟩ := idx_facts t
  have h : ((cfg0.win 3).blk t).view.emb (ix2 (0 : Fin 1) k) = ix2 (0 : Fin 1) k := by
    funext a; apply Fin.ext
    match a with
    | ⟨0, _⟩ => show win0_3.index t (0 : Fin 2) * 1 + 1 * 0 = 0; omega
    | ⟨1, _⟩ => show win0_3.index t (1 : Fin 2) * 8 + 1 * k.val = k.val; omega
  show V m c main_v1 (((cfg0.win 3).blk t).view.emb (ix2 (0 : Fin 1) k)) = _
  rw [h]

/-- Row `p` of the output's block at point `t` is row `8000 t + p` of the output. -/
theorem emb4 (t : Fin cfg0.N) (p : Fin 8000) :
    ((cfg0.win 4).blk t).view.emb (ix2 p (0 : Fin 1)) = ix2 (row t p) (0 : Fin 1) := by
  obtain ⟨-, -, -, -, -, -, -, -, e0, e1⟩ := idx_facts t
  funext a; apply Fin.ext
  match a with
  | ⟨0, _⟩ => show win0_4.index t (0 : Fin 2) * 8000 + 1 * p.val = t.val * 8000 + p.val; omega
  | ⟨1, _⟩ => show win0_4.index t (1 : Fin 2) * 1 + 1 * 0 = 0; omega

/-! ## What a point writes back, and the array after the region -/

/-- The column of all the examples' losses, from the arrays as the region finds them. -/
def outCol (c : Dev nD) : FVec Ideal S2000000x1 .f32 :=
  lossCol (V m c main_arg0) (V m c main_arg1) (V m c main_v0) (V m c main_v1)

/-- WHAT POINT `t` WRITES BACK is block `t` of the column of losses. -/
theorem flushed_eq (c : Dev nD) (t : Fin cfg0.N) :
    (dats m 0 c).flushed 4 t = ((cfg0.win 4).blk t).view.read (Elt Ideal) (outCol m c) := by
  show (cfg0.win 4).cut (grid0.coords t) ((dats m 0 c).after 4 t) = _
  rw [after0_4]
  unfold out0_4
  rw [View.canon_unit_zero hz]
  simp only [View.ld_unit_zero (S := S8000x8) hz, View.ld_unit_zero (S := S1x8) hz]
  funext j
  obtain ⟨p, q, rfl⟩ : ∃ (p : Fin 8000) (q : Fin 1), j = ix2 p q := ⟨j 0, j 1, eq_ix2 j⟩
  obtain rfl : q = 0 := Subsingleton.elim _ _
  show k0_pay1 (iblk m c 0 t) (iblk m c 1 t) (iblk m c 2 t) (iblk m c 3 t) (ix2 p (0 : Fin 1))
      = outCol m c (((cfg0.win 4).blk t).view.emb (ix2 p (0 : Fin 1)))
  rw [emb4 t p]
  refine (pay_apply (iblk m c 0 t) (iblk m c 1 t) (iblk m c 2 t) (iblk m c 3 t) p).trans ?_
  have h0 : (fun k : Fin 8 => iblk m c 0 t (ix2 p k)) = fun k => V m c main_arg0 (ix2 (row t p) k) :=
    funext fun k => blk0_apply m c t p k
  have h1 : (fun k : Fin 8 => iblk m c 1 t (ix2 p k)) = fun k => V m c main_arg1 (ix2 (row t p) k) :=
    funext fun k => blk1_apply m c t p k
  have h2 : (fun k : Fin 8 => iblk m c 2 t (ix2 (0 : Fin 1) k)) = fun k => V m c main_v0 (ix2 (0 : Fin 1) k) :=
    funext fun k => blk2_apply m c t k
  have h3 : (fun k : Fin 8 => iblk m c 3 t (ix2 (0 : Fin 1) k)) = fun k => V m c main_v1 (ix2 (0 : Fin 1) k) :=
    funext fun k => blk3_apply m c t k
  rw [h0, h1, h2, h3]
  rfl

/-- An index of the output is in point `t`'s block iff each coordinate is in the block's range on its axis. -/
theorem mem_blk (t : Fin cfg0.N) (i : S2000000x1.Idx) :
    i ∈ ((cfg0.win 4).blk t).view.set ↔ ∀ a : Fin 2, win0_4.index t a * S8000x1.size a ≤ (i a).val ∧ (i a).val < win0_4.index t a * S8000x1.size a + S8000x1.size a := by
  show i ∈ ((View.whole main_v2).slice (win0_4.rect t)).set ↔ _
  rw [View.set_slice_whole, Rect.mem_set_unit]
  exact Iff.rfl

/-- Every row of the output is in the block of the point `row / 8000`, which writes it back. -/
theorem cover (i : S2000000x1.Idx) :
    ∃ t : Fin cfg0.N, (cfg0.win 4).flush t = true ∧ i ∈ ((cfg0.win 4).blk t).view.set := by
  have hi0 : (i 0).val < 2000000 := (i 0).isLt
  have hi1 : (i 1).val < 1 := (i 1).isLt
  obtain ⟨t, ht⟩ : ∃ t : Fin cfg0.N, t.val = (i 0).val / 8000 :=
    ⟨⟨(i 0).val / 8000, Nat.lt_of_lt_of_eq (by omega : (i 0).val / 8000 < 250) N_0.symm⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 8000 ≤ (i 0).val ∧ (i 0).val < win0_4.index t (0 : Fin 2) * 8000 + 8000
    omega
  | ⟨1, _⟩ =>
    show win0_4.index t (1 : Fin 2) * 1 ≤ (i 1).val ∧ (i 1).val < win0_4.index t (1 : Fin 2) * 1 + 1
    omega

/-- THE OUTPUT ARRAY after the region is the column of all the examples' losses. -/
theorem final (c : Dev nD) : (dats m 0 c).arrAt 4 cfg0.N = outCol m c :=
  (dats m 0 c).arrAt_eq_of_cover 4 (outCol m c) (fun t _ => flushed_eq m c t) (cover)

end Cert.KernelIdeal.Hand

end
-- ==== Proof.KerRun.lean ====
/-
  The idealized kernel program's run, read as a value.

  After the region one host operation reshapes the one-column output to a vector, so the program's result at
  example `r` is the output column's row `r`: the loss of example `r`, computed from the two arguments as launched
  and the two weight tables as one-row matrices.
-/
import proofs.«125200_j50620484551284_2_alg».proof.Proof.KerBlocks
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.StableHlo Idealize.ShloMosaic.ValueIdx Cert.WeightedBce

variable (m : (ℓ : Loc nD τ sig) → Buf (Elt Ideal) ℓ) (ρ : Dev nD → PrngReg)

/-- The program's result as a function of its two arguments: every example's loss, with the two weight tables as
    one-row matrices. -/
def kernelResult (x y : FVec Ideal S2000000x8 .f32) : FVec Ideal S2000000 .f32 :=
  lossVec x y (tableRow lit0) (tableRow lit1)

/-- The column of losses over the arrays as the region finds them is the column of losses over the arguments as
    launched and the two tables as rows. -/
theorem outCol_eq (c : Dev nD) :
    outCol m c = lossCol (m ((c : Thread nD τ).loc main_arg0)) (m ((c : Thread nD τ).loc main_arg1)) (tableRow lit0) (tableRow lit1) := by
  unfold outCol
  rw [V_main_arg0, V_main_arg1, V_main_v0, V_main_v1]

/-- What the host operation after the region leaves in the result buffer. -/
theorem tail_eq (c : Dev nD) :
    Pipeline.afterTail₀ cfgs (dats m) 0 (V0 m) [hostOps1] c main_v3
      = kernelResult (m ((c : Thread nD τ).loc main_arg0)) (m ((c : Thread nD τ).loc main_arg1)) := by
  unfold Pipeline.afterTail₀
  show StableHlo.after hostOps1 _ (Proc.devRef .tc main_v3) = _
  after_results
  have hw := (Pipeline.withArrays_arr spec0 launch0.win.arr_inj c (V0 m c) (fun w => (dats m 0 c).arrAt w cfg0.N) 4).trans
    ((final m c).trans (outCol_eq m c))
  show shapeCast S2000000 (Pipeline.withArrays spec0 c (V0 m c) (fun w => (dats m 0 c).arrAt w cfg0.N)
      (Proc.devRef .tc (Pipeline.arrRef spec0 4))) shapeCasts_S2000000x1_S2000000 = _
  rw [hw]
  exact shapeCast_lossCol _ _ _ _ _

/-- From any memory with zero counters: every weakly fair execution of @main terminates with the result buffer at
    `kernelResult` of the two arguments as launched, and the arguments unchanged. -/
theorem run : θ_run defs (onTc (τ := τ) (main (F := Ideal))) ⟨m, fun _ => 0, ρ⟩ fun r => ∀ c : Dev nD,
      r.2.mem ((c.tc : Thread nD τ).loc main_v3)
        = kernelResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v3 (Pipeline.mem_restRefs_of main_v3 rfl (by decide))).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.Hand

end
-- ==== Proof.RefRun.lean ====
/-
  The reference program's run, read back.

  The reference is a straight line of 36 host operations: the two weight tables (literal vectors of 8 words) laid
  along every example, the entries' weights, the guarded logarithms, the two sums over the 8 targets and their
  quotient.  Its result is stated as ONE function `result` of the two argument arrays, built from three named
  parts — a table laid along the rows (`tableRows`), the entries' weights (`weights`) and their log-likelihoods
  (`logLik`) — so that what the run leaves in the result buffer is `result` of the launch contents.
-/
import proofs.«125200_j50620484551284_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The result as a function of the arguments -/

/-- A table of 8 words, as a vector of floats, laid along every one of the 2,000,000 examples: entry `(r, k)` is
    word `k`. -/
def tableRows (lit : Fin 8 → BitVec 32) : FVec F S2000000x8 .f32 :=
  broadcastInDim S2000000x8 ![0, 1] bcast_S1x8_S2000000x8_0_1
    (broadcastInDim S1x8 ![1] bcast_S8_S1x8_1 (fun i => FloatOps.ofBits .f32 (lit (S8.rowMajor i))))

/-- One word at every entry. -/
def splat (b : BitVec 32) : FVec F S2000000x8 .f32 :=
  broadcastInDim S2000000x8 ![] bcast_S_S2000000x8 (constant S_ .f32 b)

/-- Every entry's weight from the labels `y`: `y * wpos + (1 - y) * wneg`. -/
def weights (y : FVec F S2000000x8 .f32) : FVec F S2000000x8 .f32 :=
  addf (mulf y (tableRows lit0)) (mulf (subf (splat 0x3F800000#32) y) (tableRows lit1))

/-- Every entry's log-likelihood: `y * log (x + ε) + (1 - y) * log ((1 - x) + ε)`. -/
def logLik (x y : FVec F S2000000x8 .f32) : FVec F S2000000x8 .f32 :=
  addf (mulf y (Host.log (addf x (splat 0x322BCC77#32))))
    (mulf (subf (splat 0x3F800000#32) y) (Host.log (addf (subf (splat 0x3F800000#32) x) (splat 0x322BCC77#32))))

/-- Every example's loss: the sum over its targets of the negated weights times the log-likelihoods, divided by the
    sum of its weights. -/
def result (x y : FVec F S2000000x8 .f32) : FVec F S2000000 .f32 :=
  Host.divf
    (Host.reduceAdd (mulf (Host.negf (weights y)) (logLik x y)) (constant S_ .f32 0x00000000#32) reducesTo_S2000000x8_S2000000_d1 h_S_)
    (Host.reduceAdd (weights y) (constant S_ .f32 0x00000000#32) reducesTo_S2000000x8_S2000000_d1 h_S_)

/-! ## The run -/

/-- @main's 36 operations, in order. -/
abbrev ops : List (HloOp τ sig (Elt F)) :=
  [
    nullary main_cst (fun i => FloatOps.ofBits .f32 (lit0 (S8.rowMajor i))),
    nullary main_cst_0 (fun i => FloatOps.ofBits .f32 (lit1 (S8.rowMajor i))),
    unary main_cst main_v0 (broadcastInDim S1x8 ![1] bcast_S8_S1x8_1 : (⟨S8, .f32⟩ : BufTy).Contents (Elt F) → (⟨S1x8, .f32⟩ : BufTy).Contents (Elt F)),
    unary main_v0 main_v1 (broadcastInDim S2000000x8 ![0, 1] bcast_S1x8_S2000000x8_0_1 : (⟨S1x8, .f32⟩ : BufTy).Contents (Elt F) → (⟨S2000000x8, .f32⟩ : BufTy).Contents (Elt F)),
    binary main_arg1 main_v1 main_v2 (mulf : (⟨S2000000x8, .f32⟩ : BufTy).Contents (Elt F) → (⟨S2000000x8, .f32⟩ : BufTy).Contents (Elt F) → (⟨S2000000x8, .f32⟩ : BufTy).Contents (Elt F)),
    nullary main_cst_1 (constant S_ .f32 0x3F800000#32),
    unary main_cst_1 main_v3 (broadcastInDim S2000000x8 ![] bcast_S_S2000000x8 : (⟨S_, .f32⟩ : BufTy).Contents (Elt F) → (⟨S2000000x8, .f32⟩ : BufTy).Contents (Elt F)),
    binary main_v3 main_arg1 main_v4 (subf : (⟨S2000000x8, .f32⟩ : BufTy).Contents (Elt F) → (⟨S2000000x8, .f32⟩ : BufTy).Contents (Elt F) → (⟨S2000000x8, .f32⟩ : BufTy).Contents (Elt F)),
    unary main_cst_0 main_v5 (broadcastInDim S1x8 ![1] bcast_S8_S1x8_1 : (⟨S8, .f32⟩ : BufTy).Contents (Elt F) → (⟨S1x8, .f32⟩ : BufTy).Contents (Elt F)),
    unary main_v5 main_v6 (broadcastInDim S2000000x8 ![0, 1] bcast_S1x8_S2000000x8_0_1 : (⟨S1x8, .f32⟩ : BufTy).Contents (Elt F) → (⟨S2000000x8, .f32⟩ : BufTy).Contents (Elt F)),
    binary main_v4 main_v6 main_v7 (mulf : (⟨S2000000x8, .f32⟩ : BufTy).Contents (Elt F) → (⟨S2000000x8, .f32⟩ : BufTy).Contents (Elt F) → (⟨S2000000x8, .f32⟩ : BufTy).Contents (Elt F)),
    binary main_v2 main_v7 main_v8 (addf : (⟨S2000000x8, .f32⟩ : BufTy).Contents (Elt F) → (⟨S2000000x8, .f32⟩ : BufTy).Contents (Elt F) → (⟨S2000000x8, .f32⟩ : BufTy).Contents (Elt F)),
    unary main_v8 main_v9 (Host.negf : (⟨S2000000x8, .f32⟩ : BufTy).Contents (Elt F) → (⟨S2000000x8, .f32⟩ : BufTy).Contents (Elt F)),
    nullary main_cst_2 (constant S_ .f32 0x322BCC77#32),
    unary main_cst_2 main_v10 (broadcastInDim S2000000x8 ![] bcast_S_S2000000x8 : (⟨S_, .f32⟩ : BufTy).Contents (Elt F) → (⟨S2000000x8, .f32⟩ : BufTy).Contents (Elt F)),
    binary main_arg0 main_v10 main_v11 (addf : (⟨S2000000x8, .f32⟩ : BufTy).Contents (Elt F) → (⟨S2000000x8, .f32⟩ : BufTy).Contents (Elt F) → (⟨S2000000x8, .f32⟩ : BufTy).Contents (Elt F)),
    unary main_v11 main_v12 (Host.log : (⟨S2000000x8, .f32⟩ : BufTy).Contents (Elt F) → (⟨S2000000x8, .f32⟩ : BufTy).Contents (Elt F)),
    binary main_arg1 main_v12 main_v13 (mulf : (⟨S2000000x8, .f32⟩ : BufTy).Contents (Elt F) → (⟨S2000000x8, .f32⟩ : BufTy).Contents (Elt F) → (⟨S2000000x8, .f32⟩ : BufTy).Contents (Elt F)),
    nullary main_cst_3 (constant S_ .f32 0x3F800000#32),
    unary main_cst_3 main_v14 (broadcastInDim S2000000x8 ![] bcast_S_S2000000x8 : (⟨S_, .f32⟩ : BufTy).Contents (Elt F) → (⟨S2000000x8, .f32⟩ : BufTy).Contents (Elt F)),
    binary main_v14 main_arg1 main_v15 (subf : (⟨S2000000x8, .f32⟩ : BufTy).Contents (Elt F) → (⟨S2000000x8, .f32⟩ : BufTy).Contents (Elt F) → (⟨S2000000x8, .f32⟩ : BufTy).Contents (Elt F)),
    nullary main_cst_4 (constant S_ .f32 0x3F800000#32),
    unary main_cst_4 main_v16 (broadcastInDim S2000000x8 ![] bcast_S_S2000000x8 : (⟨S_, .f32⟩ : BufTy).Contents (Elt F) → (⟨S2000000x8, .f32⟩ : BufTy).Contents (Elt F)),
    binary main_v16 main_arg0 main_v17 (subf : (⟨S2000000x8, .f32⟩ : BufTy).Contents (Elt F) → (⟨S2000000x8, .f32⟩ : BufTy).Contents (Elt F) → (⟨S2000000x8, .f32⟩ : BufTy).Contents (Elt F)),
    nullary main_cst_5 (constant S_ .f32 0x322BCC77#32),
    unary main_cst_5 main_v18 (broadcastInDim S2000000x8 ![] bcast_S_S2000000x8 : (⟨S_, .f32⟩ : BufTy).Contents (Elt F) → (⟨S2000000x8, .f32⟩ : BufTy).Contents (Elt F)),
    binary main_v17 main_v18 main_v19 (addf : (⟨S2000000x8, .f32⟩ : BufTy).Contents (Elt F) → (⟨S2000000x8, .f32⟩ : BufTy).Contents (Elt F) → (⟨S2000000x8, .f32⟩ : BufTy).Contents (Elt F)),
    unary main_v19 main_v20 (Host.log : (⟨S2000000x8, .f32⟩ : BufTy).Contents (Elt F) → (⟨S2000000x8, .f32⟩ : BufTy).Contents (Elt F)),
    binary main_v15 main_v20 main_v21 (mulf : (⟨S2000000x8, .f32⟩ : BufTy).Contents (Elt F) → (⟨S2000000x8, .f32⟩ : BufTy).Contents (Elt F) → (⟨S2000000x8, .f32⟩ : BufTy).Contents (Elt F)),
    binary main_v13 main_v21 main_v22 (addf : (⟨S2000000x8, .f32⟩ : BufTy).Contents (Elt F) → (⟨S2000000x8, .f32⟩ : BufTy).Contents (Elt F) → (⟨S2000000x8, .f32⟩ : BufTy).Contents (Elt F)),
    binary main_v9 main_v22 main_v23 (mulf : (⟨S2000000x8, .f32⟩ : BufTy).Contents (Elt F) → (⟨S2000000x8, .f32⟩ : BufTy).Contents (Elt F) → (⟨S2000000x8, .f32⟩ : BufTy).Contents (Elt F)),
    nullary main_cst_6 (constant S_ .f32 0x00000000#32),
    binary main_v23 main_cst_6 main_v24 ((fun x v => Host.reduceAdd x v reducesTo_S2000000x8_S2000000_d1 h_S_) : (⟨S2000000x8, .f32⟩ : BufTy).Contents (Elt F) → (⟨S_, .f32⟩ : BufTy).Contents (Elt F) → (⟨S2000000, .f32⟩ : BufTy).Contents (Elt F)),
    nullary main_cst_7 (constant S_ .f32 0x00000000#32),
    binary main_v8 main_cst_7 main_v25 ((fun x v => Host.reduceAdd x v reducesTo_S2000000x8_S2000000_d1 h_S_) : (⟨S2000000x8, .f32⟩ : BufTy).Contents (Elt F) → (⟨S_, .f32⟩ : BufTy).Contents (Elt F) → (⟨S2000000, .f32⟩ : BufTy).Contents (Elt F)),
    binary main_v24 main_v25 main_v26 (Host.divf : (⟨S2000000, .f32⟩ : BufTy).Contents (Elt F) → (⟨S2000000, .f32⟩ : BufTy).Contents (Elt F) → (⟨S2000000, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., unary_bufs_sub .., binary_bufs_sub .., nullary_bufs_sub .., unary_bufs_sub .., binary_bufs_sub .., unary_bufs_sub .., unary_bufs_sub .., binary_bufs_sub .., binary_bufs_sub .., unary_bufs_sub .., nullary_bufs_sub .., unary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub .., binary_bufs_sub .., binary_bufs_sub .., nullary_bufs_sub .., binary_bufs_sub .., nullary_bufs_sub .., binary_bufs_sub .., binary_bufs_sub ..⟩

/-- On every device, from any memory with zero counters: every weakly fair execution of @main terminates with the
    result buffer at `result` of the two arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v26).trans (by after_results_simp; rfl),
      (h c main_arg0).trans (by after_results_simp),
      (h c main_arg1).trans (by after_results_simp)⟩)
    (run_seq scopedRefs_eq scopedSems_eq defs main (fun _ => ops) main_eq (fun _ => ops_sub) m ρ)

end Cert.ReferenceIdeal.HandRun

end
-- ==== Proof.RefValue.lean ====
/-
  The reference's result, read at an example.

  At example `r` the reference's result is the quotient of two sums over the 8 targets, each from the zero word:
  the negated weights times the log-likelihoods, and the weights.  Entry `(r, k)` of a table laid along the rows is
  word `k` of the table, and a word at every entry is that word; so the result at `r` is the loss of example `r`
  with the tables' entries read directly off their words.
-/
import proofs.«125200_j50620484551284_2_alg».proof.Proof.RefRun
import proofs.«125200_j50620484551284_2_alg».proof.Proof.RowLoss
import proofs.«125200_j50620484551284_2_alg».proof.Proof.LibRowOps

noncomputable section

namespace Cert.ReferenceIdeal.HandValue

open Cert.ReferenceIdeal Cert.ReferenceIdeal.Gen Cert.ReferenceIdeal.HandRun
open Idealize.ShloMosaic Idealize.ShloMosaic.ValueIdx Cert.WeightedBce

/-- Summing along the rows of the examples' array leaves one entry per example. -/
theorem reduces_rows : S2000000x8.Reduces [1] S2000000 := by decide

/-- Entry `k` of a table of 8 words, as a float. -/
def entry (lit : Fin 8 → BitVec 32) (k : Fin 8) : EReal := Ideal.ofBits .f32 (lit (S8.rowMajor (ix1 k)))

/-- A table laid along every example reads, at `(r, k)`, the table's entry `k`. -/
theorem tableRows_apply (lit : Fin 8 → BitVec 32) (r : Fin 2000000) (k : Fin 8) :
    tableRows (F := Ideal) lit (ix2 r k) = entry lit k :=
  Cert.LibRowOps.rowVec_host_apply (m := 2000000) (fun i : S8.Idx => (FloatOps.ofBits .f32 (lit (S8.rowMajor i)) : Ideal .f32))
    bcast_S8_S1x8_1 bcast_S1x8_S2000000x8_0_1 r k

/-- The reference's result at example `r` is the loss of example `r`, the tables read off their words. -/
theorem result_apply (x y : FVec Ideal S2000000x8 .f32) (r : Fin 2000000) :
    result (F := Ideal) x y (ix1 r)
      = rowLoss (fun k => x (ix2 r k)) (fun k => y (ix2 r k)) (entry lit0) (entry lit1) := by
  unfold result
  refine (rowQuot_host_apply _ _ reducesTo_S2000000x8_S2000000_d1 reduces_rows h_S_ r).trans ?_
  unfold rowLoss
  refine congrArg₂ Ideal.div (Finset.sum_congr rfl fun k _ => ?_) (Finset.sum_congr rfl fun k _ => ?_)
  · show -(y (ix2 r k) * tableRows (F := Ideal) lit0 (ix2 r k) + (one - y (ix2 r k)) * tableRows (F := Ideal) lit1 (ix2 r k))
        * (y (ix2 r k) * Ideal.log (x (ix2 r k) + eps) + (one - y (ix2 r k)) * Ideal.log (one - x (ix2 r k) + eps)) = _
    rw [tableRows_apply, tableRows_apply]
    rfl
  · show y (ix2 r k) * tableRows (F := Ideal) lit0 (ix2 r k) + (one - y (ix2 r k)) * tableRows (F := Ideal) lit1 (ix2 r k) = _
    rw [tableRows_apply, tableRows_apply]
    rfl

end Cert.ReferenceIdeal.HandValue

end
-- ==== Proof.Bridge.lean ====
/-
  The two programs compute one function.

  The kernel program's result at example `r` is the loss of example `r` with the weight tables read off one-row
  matrices; the reference's is the loss of example `r` with the tables read off their words.  Entry `(0, k)` of a
  table's row is the table's word `k`, and the two programs carry the same two tables of words, so the two results
  agree at every example, for all extended-real inputs.
-/
import proofs.«125200_j50620484551284_2_alg».proof.Proof.KerRun
import proofs.«125200_j50620484551284_2_alg».proof.Proof.RefValue

noncomputable section

namespace Cert.Proof.Bridge

open Idealize.ShloMosaic Idealize.ShloMosaic.ValueIdx Cert.WeightedBce

/-- The two programs' positive-label tables are the same 8 words. -/
theorem lit0_eq : Cert.KernelIdeal.lit0 = Cert.ReferenceIdeal.lit0 := by
  funext k; fin_cases k <;> rfl

/-- The two programs' negative-label tables are the same 8 words. -/
theorem lit1_eq : Cert.KernelIdeal.lit1 = Cert.ReferenceIdeal.lit1 := by
  funext k; fin_cases k <;> rfl

/-- Entry `(0, k)` of the kernel program's positive-label row is the reference's positive-label entry `k`. -/
theorem row0_entry (k : Fin 8) :
    Cert.KernelIdeal.Hand.tableRow (F := Ideal) Cert.KernelIdeal.lit0 (ix2 (0 : Fin 1) k)
      = Cert.ReferenceIdeal.HandValue.entry Cert.ReferenceIdeal.lit0 k :=
  (Cert.KernelIdeal.Hand.tableRow_apply Cert.KernelIdeal.lit0 k).trans (by rw [lit0_eq]; rfl)

/-- Entry `(0, k)` of the kernel program's negative-label row is the reference's negative-label entry `k`. -/
theorem row1_entry (k : Fin 8) :
    Cert.KernelIdeal.Hand.tableRow (F := Ideal) Cert.KernelIdeal.lit1 (ix2 (0 : Fin 1) k)
      = Cert.ReferenceIdeal.HandValue.entry Cert.ReferenceIdeal.lit1 k :=
  (Cert.KernelIdeal.Hand.tableRow_apply Cert.KernelIdeal.lit1 k).trans (by rw [lit1_eq]; rfl)

/-- The reference's result is the kernel program's result, as functions of the two arguments. -/
theorem results_eq (x y : FVec Ideal ⟨2, ![2000000, 8]⟩ .f32) :
    Cert.ReferenceIdeal.HandRun.result (F := Ideal) x y = Cert.KernelIdeal.Hand.kernelResult x y := by
  funext i
  obtain ⟨r, rfl⟩ : ∃ r : Fin 2000000, i = ix1 r := ⟨i 0, eq_ix1 i⟩
  rw [Cert.ReferenceIdeal.HandValue.result_apply]
  show _ = rowLoss (fun k => x (ix2 r k)) (fun k => y (ix2 r k))
      (fun k => Cert.KernelIdeal.Hand.tableRow (F := Ideal) Cert.KernelIdeal.lit0 (ix2 (0 : Fin 1) k))
      (fun k => Cert.KernelIdeal.Hand.tableRow (F := Ideal) Cert.KernelIdeal.lit1 (ix2 (0 : Fin 1) k))
  rw [funext row0_entry, funext row1_entry]

end Cert.Proof.Bridge

end
-- ==== Proof.lean ====
/-
  The certificate: a weighted binary cross-entropy per example, as a tiled kernel and as a plain array program.

  Both programs take 2,000,000 examples of 8 probabilities and 8 labels and return, per example, the weighted mean
  over the 8 targets of the negated log-likelihoods.  The kernel program walks the examples in 250 blocks of 8000
  rows, computes each block's losses as one column and reshapes the column to a vector; the reference computes the
  whole arrays at once.  On the extended reals the two results are one function of the arguments: at every example
  both are `(Σ_k (-w k) * ll k) / (Σ_k w k)`, the kernel's negation written as a difference from zero and the
  reference's sums started from zero.  The equality uses only `0 - w = -w` and `0 + s = s`, which hold at the
  infinities too, so the inputs' finiteness is never opened.

  The three frames: the two kernel programs' are the generated frame runs; the reference's is its run with the
  result dropped.  The idealized kernel program is the kernel program's own text read on the extended reals (the
  ideal pass rewrote nothing), so that conjunct is trivial.
-/
import proofs.«125200_j50620484551284_2_alg».proof.Defs
import proofs.«125200_j50620484551284_2_alg».proof.Proof.Gen.Kernel
import proofs.«125200_j50620484551284_2_alg».proof.Proof.Gen.Kernel.Frame
import proofs.«125200_j50620484551284_2_alg».proof.Proof.Gen.KernelIdeal
import proofs.«125200_j50620484551284_2_alg».proof.Proof.Gen.KernelIdeal.Frame
import proofs.«125200_j50620484551284_2_alg».proof.Proof.Gen.ReferenceIdeal
import proofs.«125200_j50620484551284_2_alg».proof.Proof.Gen.Pre_finite_inputs
import proofs.«125200_j50620484551284_2_alg».proof.Proof.KerRun
import proofs.«125200_j50620484551284_2_alg».proof.Proof.RefRun
import proofs.«125200_j50620484551284_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.HandRun.run (F := Ideal) m ρ)

/-- From memories agreeing on the arguments both idealized programs end with every example's loss in their result
    buffers: the kernel program's run, and the reference's run carried to the same function. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.HandRun.run (F := Ideal) m' ρ')
  rw [(hagree c).1, (hagree c).2]
  exact Cert.Proof.Bridge.results_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
